-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x32x32 : Shape := ⟨4, ![256, 256, 32, 32]⟩
abbrev S_ : Shape := ⟨0, ![]⟩

class Facts : Prop where
  bcast_S_S256x256x32x32 : S_.BroadcastsInDim S256x256x32x32 (![] : Fin 0 → Fin S256x256x32x32.rank)
  reducesTo_S256x256x32x32_S_d0_1_2_3 : S256x256x32x32.ReducesTo [0, 1, 2, 3] S_
  h_S_ : 0 < S_.numel

variable [Facts]

def fn {F : FTy → Type} [FloatOps F] (main_arg0 : FVec F S256x256x32x32 .f32) : IVec S_ 1 :=
  let main_v0 : FVec F S256x256x32x32 .f32 := Host.absf main_arg0
  let main_cst : FVec F S_ .f32 := constant S_ .f32 0x7F800000#32
  let main_v1 : FVec F S256x256x32x32 .f32 := broadcastInDim S256x256x32x32 ![] bcast_S_S256x256x32x32 main_cst
  let main_v2 : IVec S256x256x32x32 1 := cmpf .olt main_v0 main_v1
  let main_c : IVec S_ 1 := constantI S_ 1 1#1
  let main_v3 : IVec S_ 1 := (fun x v => Host.reduce IntOp.andi x v reducesTo_S256x256x32x32_S_d0_1_2_3 h_S_) main_v2 main_c
  main_v3
-- ==== Kernel.lean ====
abbrev S256x256x32x32 : Shape := ⟨4, ![256, 256, 32, 32]⟩
abbrev S2x256x32x32 : Shape := ⟨4, ![2, 256, 32, 32]⟩
abbrev S2x8192x32 : Shape := ⟨3, ![2, 8192, 32]⟩
abbrev S2x32 : Shape := ⟨2, ![2, 32]⟩
abbrev S2x1x32 : Shape := ⟨3, ![2, 1, 32]⟩
abbrev S2x1 : Shape := ⟨2, ![2, 1]⟩
abbrev S2x1x1 : Shape := ⟨3, ![2, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S256x256x32x32, .f32⟩
  | .hbm, ⟨1, _⟩ => ⟨S256x256x32x32, .f32⟩
  | .local _ .vmem, ⟨0, _⟩ => ⟨S2x256x32x32, .f32⟩
  | .local _ .vmem, ⟨1, _⟩ => ⟨S2x256x32x32, .f32⟩
  | .local _ .vmem, ⟨2, _⟩ => ⟨S2x256x32x32, .f32⟩
  | .local _ .vmem, ⟨3, _⟩ => ⟨S2x256x32x32, .f32⟩
  | _, _ => ⟨S256x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x256x32x32_S2x256x32x32_0_0_0_0 : ∀ a, (![0, 0, 0, 0] : Fin 4 → Nat) a + S2x256x32x32.size a ≤ S2x256x32x32.size a
  h_S2x256x32x32 : 0 < S2x256x32x32.numel
  shapeCasts_S2x256x32x32_S2x8192x32 : S2x256x32x32.ShapeCasts S2x8192x32
  reduces_S2x8192x32_S2x32 : S2x8192x32.Reduces [1] S2x32
  shapeCasts_S2x32_S2x1x32 : S2x32.ShapeCasts S2x1x32
  reduces_S2x1x32_S2x1 : S2x1x32.Reduces [2] S2x1
  shapeCasts_S2x1_S2x1x1 : S2x1.ShapeCasts S2x1x1
  broadcasts_S2x1x1_S2x8192x32 : S2x1x1.Broadcasts S2x8192x32
  shapeCasts_S2x8192x32_S2x256x32x32 : S2x8192x32.ShapeCasts S2x256x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x32x32.size a ≤ S256x256x32x32.size a
  hwx0_0 : ∀ i : grid0.Coords, EltTy.bits .f32 = 32 ∨ (Rect.block (s := S256x256x32x32) S2x256x32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x32x32.size a ≤ S256x256x32x32.size a
  hwx0_1 : ∀ i : grid0.Coords, EltTy.bits .f32 = 32 ∨ (Rect.block (s := S256x256x32x32) S2x256x32x32.size (cc0_transform_1 i) (hinb0_1 i)).WholeWords (EltTy.packing .f32)

variable [Facts₀]

abbrev win0_0 : Pipeline.Window sig grid0 :=
  Pipeline.Window.ofSpec (Memref.whole main_arg0) S2x256x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x256x32x32.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x256x32x32 : Shape := ⟨4, ![256, 256, 32, 32]⟩
abbrev S256x8x32768 : Shape := ⟨3, ![256, 8, 32768]⟩
abbrev S8x8x32768 : Shape := ⟨3, ![8, 8, 32768]⟩
abbrev S8x8 : Shape := ⟨2, ![8, 8]⟩
abbrev S8x8x1 : Shape := ⟨3, ![8, 8, 1]⟩
abbrev S8x1 : Shape := ⟨2, ![8, 1]⟩
abbrev S8x1x1 : Shape := ⟨3, ![8, 1, 1]⟩

abbrev nBuf : Space → Nat
  | .hbm => 4
  | .vmem => 4
  | .smem => 0
  | _ => 0

abbrev bufTy : (tb : Table) → Fin (tcTables nBuf tb) → BufTy
  | .hbm, ⟨0, _⟩ => ⟨S256x256x32x32, .f32⟩
  | .hbm, ⟨1, _⟩ => ⟨S256x8x32768, .f32⟩
  | .hbm, ⟨2, _⟩ => ⟨S256x8x32768, .f32⟩
  | .hbm, ⟨3, _⟩ => ⟨S256x256x32x32, .f32⟩
  | .local _ .vmem, ⟨0, _⟩ => ⟨S8x8x32768, .f32⟩
  | .local _ .vmem, ⟨1, _⟩ => ⟨S8x8x32768, .f32⟩
  | .local _ .vmem, ⟨2, _⟩ => ⟨S8x8x32768, .f32⟩
  | .local _ .vmem, ⟨3, _⟩ => ⟨S8x8x32768, .f32⟩
  | _, _ => ⟨S256x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S256x256x32x32_S256x8x32768 : S256x256x32x32.ShapeCasts S256x8x32768
  inb_S8x8x32768_S8x8x32768_0_0_0 : ∀ a, (![0, 0, 0] : Fin 3 → Nat) a + S8x8x32768.size a ≤ S8x8x32768.size a
  h_S8x8x32768 : 0 < S8x8x32768.numel
  shapeCasts_S8x8x32768_S8x8x32768 : S8x8x32768.ShapeCasts S8x8x32768
  reduces_S8x8x32768_S8x8 : S8x8x32768.Reduces [2] S8x8
  shapeCasts_S8x8_S8x8x1 : S8x8.ShapeCasts S8x8x1
  reduces_S8x8x1_S8x1 : S8x8x1.Reduces [1] S8x1
  shapeCasts_S8x1_S8x1x1 : S8x1.ShapeCasts S8x1x1
  broadcasts_S8x1x1_S8x8x32768 : S8x1x1.Broadcasts S8x8x32768
  shapeCasts_S256x8x32768_S256x256x32x32 : S256x8x32768.ShapeCasts S256x256x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x32768.size a ≤ S256x8x32768.size a
  hwx0_0 : ∀ i : grid0.Coords, EltTy.bits .f32 = 32 ∨ (Rect.block (s := S256x8x32768) S8x8x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x32768.size a ≤ S256x8x32768.size a
  hwx0_1 : ∀ i : grid0.Coords, EltTy.bits .f32 = 32 ∨ (Rect.block (s := S256x8x32768) S8x8x32768.size (cc0_transform_1 i) (hinb0_1 i)).WholeWords (EltTy.packing .f32)

variable [Facts₀]

abbrev win0_0 : Pipeline.Window sig grid0 :=
  Pipeline.Window.ofSpec (Memref.whole main_v0) S8x8x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x8x32768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== Proof.LibRowStats.lean ====
/-
  Reading a row statistic AT AN INDEX, and two spellings of "centre, then scale".

  A normalization of whole rows first adds up each row — as partial sums over one axis of a rank-3 arrangement of the row,
  then over the other — and then shifts and scales every entry by numbers that depend on the row alone. The facts here,
  over shapes of literal rank and any extents:

  * a sum over the MIDDLE axis of a rank-3 vector, at (a, c), is the sum over the middle coordinate (`midSum3_apply`);
  * the cast [a, b] → [a, 1, b] and the broadcast [a, 1, 1] → [a, b, c] read at an index (`cast_mid3_apply`,
    `bcast_unit3_apply`);
  * a double sum over `Fin m` and `Fin n` is one sum over the `m * n` row-major positions j, read at (j / n, j % n)
    (`sum_flat`); so two different two-step summations of one row are the same number;
  * on the extended reals, for REAL x, m and r:  x · r + (0 − m) · r = (x − m) · r  (`shift_eq_centred`) — the law is
    distributivity, which fails at the infinities, so it is stated for reals;
  * the reciprocal square root of a positive real is a real (`rsqrt_pos_real`), and so is the whole scale
    (max (q·c − (s·c)·(s·c)) 0 + ε)^(−1/2) of real s, q, c and real ε > 0 (`scale_real`).
-/
import Idealize.ShloMosaic.PureOps.Ideal.Laws
import Idealize.ShloMosaic.Lib.Pipeline.Value
import Idealize.ShloMosaic.Lib.ValueIdx

noncomputable section

open scoped BigOperators

namespace Idealize.ShloMosaic.RowStats

open Idealize.ShloMosaic Idealize.ShloMosaic.ValueIdx

/-! ## A sum over the middle axis -/

/-- A sum over the middle axis of a rank-3 vector, at (a, c): the sum over the middle coordinate. -/
theorem midSum3_apply {n0 n1 n2 : Nat} {φ : FTy} (v : FVec Ideal ⟨3, ![n0, n1, n2]⟩ φ) (acc : BitVec φ.bits)
    (h : (⟨3, ![n0, n1, n2]⟩ : Shape).Reduces [1] ⟨2, ![n0, n2]⟩) (hφ : FKind.Formats φ) (hacc : acc = FKind.add.neutral φ hφ)
    (a : Fin n0) (c : Fin n2) :
    multiReduction .add [1] ⟨2, ![n0, n2]⟩ v acc h hφ hacc (ix2 a c) = ∑ k : Fin n1, v (ix3 a k c) :=
  (Ideal.multiReduction_add_single v acc h hφ hacc (ix2 a c)).trans
    (Finset.sum_congr rfl fun k _ => congrArg v (funext fun d => Fin.ext (by
      match d with | ⟨0, _⟩ => rfl | ⟨1, _⟩ => rfl | ⟨2, _⟩ => rfl)))

/-! ## Layout -/

section Layout
variable {α : Type}

/-- [a, b] viewed [a, 1, b]: entry (i, 0, j) is entry (i, j). -/
theorem cast_mid3_apply {a b : Nat} (v : (⟨2, ![a, b]⟩ : Shape).Idx → α) (h : (⟨2, ![a, b]⟩ : Shape).ShapeCasts ⟨3, ![a, 1, b]⟩)
    (i : Fin a) (z : Fin 1) (j : Fin b) : shapeCast ⟨3, ![a, 1, b]⟩ v h (ix3 i z j) = v (ix2 i j) :=
  shapeCast_apply v h (ix3 i z j) (ix2 i j) (by
    rw [Shape.rowMajor_val_two, Shape.rowMajor_val_three]
    show i.val * b + j.val = (i.val * 1 + z.val) * b + j.val
    rw [Fin.val_eq_zero z, Nat.mul_one, Nat.add_zero])

/-- A [a, 1, 1] vector broadcast to [a, b, c]: entry (i, j, k) is entry (i, 0, 0). -/
theorem bcast_unit3_apply {a b c : Nat} (u : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ u h (ix3 i j k) = u (ix3 i 0 0) :=
  broadcastTo_apply u h (ix3 i j k) (ix3 i 0 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl]
    | ⟨2, _⟩ => show 0 = if (1 : Nat) = 1 then 0 else k.val; rw [if_pos rfl])

end Layout

/-! ## One row, summed in two steps -/

/-- A double sum over `Fin m` and `Fin n` is the sum over the `m * n` row-major positions. -/
theorem sum_flat {M : Type} [AddCommMonoid M] {m n N : Nat} (hN : N = m * n) (hn : 0 < n) (g : Fin m → Fin n → M) :
    ∑ a : Fin m, ∑ b : Fin n, g a b
      = ∑ j : Fin N, g ⟨j.val / n, Nat.div_lt_of_lt_mul (lt_of_lt_of_eq j.isLt (hN.trans (Nat.mul_comm m n)))⟩
          ⟨j.val % n, Nat.mod_lt _ hn⟩ := by
  subst hN
  rw [← Fintype.sum_prod_type']
  exact (Equiv.sum_comp finProdFinEquiv.symm (fun p : Fin m × Fin n => g p.1 p.2)).symm

/-- A finite sum of reals, on the extended reals, is a real. -/
theorem sum_real {ι : Type} (t : Finset ι) (f : ι → EReal) (h : ∀ i, ∃ v : ℝ, f i = (v : EReal)) :
    ∃ v : ℝ, ∑ i ∈ t, f i = (v : EReal) := by
  classical
  choose g hg using h
  refine ⟨∑ i ∈ t, g i, ?_⟩
  rw [Finset.sum_congr rfl (fun i _ => hg i)]
  induction t using Finset.induction_on with
  | empty => simp
  | insert a s ha ih => rw [Finset.sum_insert ha, Finset.sum_insert ha, EReal.coe_add, ih]

/-! ## Centre then scale, in two spellings -/

/-- For real x, m and r:  x · r + (0 − m) · r = (x − m) · r  on the extended reals. -/
theorem shift_eq_centred (x m r : ℝ) :
    (x : EReal) * (r : EReal) + ((0 : EReal) - (m : EReal)) * (r : EReal) = ((x : EReal) - (m : EReal)) * (r : EReal) := by
  rw [← EReal.coe_zero, ← EReal.coe_sub, ← EReal.coe_sub, ← EReal.coe_mul, ← EReal.coe_mul, ← EReal.coe_mul, ← EReal.coe_add]
  congr 1
  ring

/-- The reciprocal square root of a positive real is a real. -/
theorem rsqrt_pos_real (r : ℝ) (hr : 0 < r) : Ideal.rsqrt (r : EReal) = (((Real.sqrt r)⁻¹ : ℝ) : EReal) := by
  rw [Ideal.rsqrt_coe, if_neg (not_lt.mpr hr.le), if_neg hr.ne']

/-- The larger of two reals, on the extended reals. -/
theorem coe_max (a b : ℝ) : max (a : EReal) (b : EReal) = ((max a b : ℝ) : EReal) :=
  (EReal.coe_strictMono.monotone.map_max).symm

/-- The scale of a row — (max (q·c − (s·c)·(s·c)) 0 + ε)^(−1/2) — is a real when s, q, c are reals and ε is a positive real. -/
theorem scale_real (s q c e : ℝ) (he : 0 < e) :
    ∃ r : ℝ, Ideal.rsqrt (max ((q : EReal) * (c : EReal) - ((s : EReal) * (c : EReal)) * ((s : EReal) * (c : EReal))) 0 + (e : EReal)) = (r : EReal) := by
  refine ⟨(Real.sqrt (max (q * c - (s * c) * (s * c)) 0 + e))⁻¹, ?_⟩
  rw [← EReal.coe_mul, ← EReal.coe_mul, ← EReal.coe_mul, ← EReal.coe_sub, ← EReal.coe_zero, coe_max, ← EReal.coe_add]
  exact rsqrt_pos_real _ (by have := le_max_right (q * c - (s * c) * (s * c)) 0; linarith)

end Idealize.ShloMosaic.RowStats

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.RowNorm.lean ====
/-
  The function both programs compute, and the two arrangements of a row they add it up in.

  An array x of 256 rows of 262144 = 256 · 32 · 32 numbers is normalized row by row: with s the sum of a row, q the sum
  of its squares, c = 2^-18 (one over the row's length, an exact power of two) and ε the f32 nearest 1e-5,

      m = s · c,   r = (max (q · c − m · m) 0 + ε)^(−1/2),   entry x  ↦  (x − m) · r.

  One program writes the last step  x · r + (0 − m) · r  (`shifted`), the other  (x − m) · r  (`centred`); for real
  entries they agree (`shifted_eq_centred`, `normShifted_eq_normCentred`).

  A row is laid out as [256, 32, 32] in the argument; one program adds it up as [8192, 32] (first down the 8192, then across
  the 32), the other as [8, 32768] (first across the 32768, then down the 8). Entry j of the row, j < 262144 counted
  row-major, sits at (j / 1024, j / 32 % 32, j % 32) in the first layout (`cell4`) and at (j / 32768, j % 32768) in the
  last (`cell3`); each two-step sum is the sum over j (`total_flat4`, `total_flat3`).
-/
import proofs.«152313_g2000209400627767_pallasbulk_1259_5_alg».proof.Proof.LibRowStats
import proofs.«152313_g2000209400627767_pallasbulk_1259_5_alg».proof.Proof.LibKeepdims

noncomputable section

open scoped BigOperators

namespace Cert.RowNorm

open Idealize.ShloMosaic Idealize.ShloMosaic.ValueIdx Idealize.ShloMosaic.RowStats Idealize.ShloMosaic.Keepdims

/-! ## The row's entries, counted row-major -/

/-- Entry `j` of row `b` of a [nb, 256, 32, 32] array. -/
abbrev cell4 {nb : Nat} (b : Fin nb) (j : Fin 262144) : (⟨4, ![nb, 256, 32, 32]⟩ : Shape).Idx :=
  ix4 b ⟨j.val / 1024, by have := j.isLt; omega⟩ ⟨j.val / 32 % 32, Nat.mod_lt _ (by decide)⟩ ⟨j.val % 32, Nat.mod_lt _ (by decide)⟩

/-- Entry `j` of row `b` of a [nb, 8, 32768] array. -/
abbrev cell3 {nb : Nat} (b : Fin nb) (j : Fin 262144) : (⟨3, ![nb, 8, 32768]⟩ : Shape).Idx :=
  ix3 b ⟨j.val / 32768, by have := j.isLt; omega⟩ ⟨j.val % 32768, Nat.mod_lt _ (by decide)⟩

/-- The position in its row of an entry of a [nb, 256, 32, 32] array. -/
abbrev pos4 {nb : Nat} (i : (⟨4, ![nb, 256, 32, 32]⟩ : Shape).Idx) : Fin 262144 :=
  ⟨(i 1).val * 1024 + (i 2).val * 32 + (i 3).val, by
    have h1 : (i 1).val < 256 := (i 1).isLt
    have h2 : (i 2).val < 32 := (i 2).isLt
    have h3 : (i 3).val < 32 := (i 3).isLt
    omega⟩

theorem cell4_pos4 {nb : Nat} (i : (⟨4, ![nb, 256, 32, 32]⟩ : Shape).Idx) : cell4 (i 0) (pos4 i) = i := by
  have h1 : (i 1).val < 256 := (i 1).isLt
  have h2 : (i 2).val < 32 := (i 2).isLt
  have h3 : (i 3).val < 32 := (i 3).isLt
  funext a; apply Fin.ext
  match a with
  | ⟨0, _⟩ => rfl
  | ⟨1, _⟩ => show ((i 1).val * 1024 + (i 2).val * 32 + (i 3).val) / 1024 = (i 1).val; omega
  | ⟨2, _⟩ => show ((i 1).val * 1024 + (i 2).val * 32 + (i 3).val) / 32 % 32 = (i 2).val; omega
  | ⟨3, _⟩ => show ((i 1).val * 1024 + (i 2).val * 32 + (i 3).val) % 32 = (i 3).val; omega

/-! ## The constants -/

/-- One over the row's length: the f32 pattern of 2^-18. -/
abbrev invN : EReal := Ideal.ofBits .f32 0x36800000#32
/-- The f32 nearest 1e-5. -/
abbrev eps : EReal := Ideal.ofBits .f32 0x3727C5AC#32

theorem invN_real : ∃ c : ℝ, invN = (c : EReal) := by
  simp [Ideal.ofBits, Ideal.ieee]
  exact ⟨8388608 * (2 ^ 41)⁻¹, (EReal.coe_mul _ _).symm⟩

theorem eps_real : ∃ e : ℝ, 0 < e ∧ eps = (e : EReal) := by
  simp [Ideal.ofBits, Ideal.ieee]
  exact ⟨10995116 * (2 ^ 40)⁻¹, by positivity, (EReal.coe_mul _ _).symm⟩

/-! ## The normalization of one entry, from its row's two sums -/

/-- The row's scale (max (q·c − (s·c)·(s·c)) 0 + ε)^(−1/2). -/
def scale (s q : EReal) : EReal := Ideal.rsqrt (max (q * invN - (s * invN) * (s * invN)) 0 + eps)
/-- (x − m) · r. -/
def centred (s q x : EReal) : EReal := (x - s * invN) * scale s q
/-- x · r + (0 − m) · r. -/
def shifted (s q x : EReal) : EReal := x * scale s q + (0 - s * invN) * scale s q

theorem shifted_eq_centred {s q x : EReal} (hs : ∃ v : ℝ, s = (v : EReal)) (hq : ∃ v : ℝ, q = (v : EReal))
    (hx : ∃ v : ℝ, x = (v : EReal)) : shifted s q x = centred s q x := by
  obtain ⟨s, rfl⟩ := hs
  obtain ⟨q, rfl⟩ := hq
  obtain ⟨x, rfl⟩ := hx
  obtain ⟨c, hc⟩ := invN_real
  obtain ⟨e, he, hee⟩ := eps_real
  unfold shifted centred scale
  rw [hc, hee]
  obtain ⟨r, hr⟩ := scale_real s q c e he
  rw [hr, ← EReal.coe_mul]
  exact shift_eq_centred x (s * c) r

/-! ## The whole array -/

section Array
variable {nb : Nat}

/-- The sum of row `b`, and of its squares. -/
def rowSum (x : (⟨4, ![nb, 256, 32, 32]⟩ : Shape).Idx → EReal) (b : Fin nb) : EReal := ∑ j : Fin 262144, x (cell4 b j)
def rowSq (x : (⟨4, ![nb, 256, 32, 32]⟩ : Shape).Idx → EReal) (b : Fin nb) : EReal := ∑ j : Fin 262144, x (cell4 b j) * x (cell4 b j)

/-- The array normalized row by row, in the two spellings. -/
def normShifted (x : (⟨4, ![nb, 256, 32, 32]⟩ : Shape).Idx → EReal) : (⟨4, ![nb, 256, 32, 32]⟩ : Shape).Idx → EReal :=
  fun i => shifted (rowSum x (i 0)) (rowSq x (i 0)) (x i)
def normCentred (x : (⟨4, ![nb, 256, 32, 32]⟩ : Shape).Idx → EReal) : (⟨4, ![nb, 256, 32, 32]⟩ : Shape).Idx → EReal :=
  fun i => centred (rowSum x (i 0)) (rowSq x (i 0)) (x i)

/-- On an array of reals the two spellings are one function. -/
theorem normShifted_eq_normCentred (x : (⟨4, ![nb, 256, 32, 32]⟩ : Shape).Idx → EReal) (hx : ∀ i, ∃ v : ℝ, x i = (v : EReal)) :
    normShifted x = normCentred x :=
  funext fun i => shifted_eq_centred (sum_real _ _ fun j => hx _)
    (sum_real _ _ fun j => by obtain ⟨v, hv⟩ := hx (cell4 (i 0) j); exact ⟨v * v, by rw [hv, EReal.coe_mul]⟩) (hx i)

/-- The same for an array laid out [nb, 8, 32768]. -/
def rowSum3 (y : (⟨3, ![nb, 8, 32768]⟩ : Shape).Idx → EReal) (b : Fin nb) : EReal := ∑ j : Fin 262144, y (cell3 b j)
def rowSq3 (y : (⟨3, ![nb, 8, 32768]⟩ : Shape).Idx → EReal) (b : Fin nb) : EReal := ∑ j : Fin 262144, y (cell3 b j) * y (cell3 b j)
def normCentred3 (y : (⟨3, ![nb, 8, 32768]⟩ : Shape).Idx → EReal) : (⟨3, ![nb, 8, 32768]⟩ : Shape).Idx → EReal :=
  fun i => centred (rowSum3 y (i 0)) (rowSq3 y (i 0)) (y i)

end Array

/-! ## The two layouts of one array -/

section Reshape
variable {nb : Nat} {α : Type}

/-- [nb, 256, 32, 32] reshaped to [nb, 8, 32768]: entry j of a row stays entry j. -/
theorem reshape43_cell (x : (⟨4, ![nb, 256, 32, 32]⟩ : Shape).Idx → α)
    (h : (⟨4, ![nb, 256, 32, 32]⟩ : Shape).ShapeCasts ⟨3, ![nb, 8, 32768]⟩) (b : Fin nb) (j : Fin 262144) :
    shapeCast ⟨3, ![nb, 8, 32768]⟩ x h (cell3 b j) = x (cell4 b j) :=
  shapeCast_apply x h (cell3 b j) (cell4 b j) (by
    rw [Shape.rowMajor_val_three, Shape.rowMajor_val_four]
    show ((b.val * 256 + j.val / 1024) * 32 + j.val / 32 % 32) * 32 + j.val % 32 = (b.val * 8 + j.val / 32768) * 32768 + j.val % 32768
    omega)

/-- [nb, 8, 32768] reshaped to [nb, 256, 32, 32]: an entry is read at its position in the row. -/
theorem reshape34_apply (y : (⟨3, ![nb, 8, 32768]⟩ : Shape).Idx → α)
    (h : (⟨3, ![nb, 8, 32768]⟩ : Shape).ShapeCasts ⟨4, ![nb, 256, 32, 32]⟩) (i : (⟨4, ![nb, 256, 32, 32]⟩ : Shape).Idx) :
    shapeCast ⟨4, ![nb, 256, 32, 32]⟩ y h i = y (cell3 (i 0) (pos4 i)) :=
  shapeCast_apply y h i (cell3 (i 0) (pos4 i)) (by
    have h1 : (i 1).val < 256 := (i 1).isLt
    have h2 : (i 2).val < 32 := (i 2).isLt
    have h3 : (i 3).val < 32 := (i 3).isLt
    rw [Shape.rowMajor_val_three, Shape.rowMajor_val_four]
    show ((i 0).val * 8 + ((i 1).val * 1024 + (i 2).val * 32 + (i 3).val) / 32768) * 32768 + ((i 1).val * 1024 + (i 2).val * 32 + (i 3).val) % 32768
      = (((i 0).val * 256 + (i 1).val) * 32 + (i 2).val) * 32 + (i 3).val
    omega)

/-- One entry's normalization, computed from the [nb, 8, 32768] layout of x, is the one computed from x. -/
theorem centred3_eq (x : (⟨4, ![nb, 256, 32, 32]⟩ : Shape).Idx → EReal)
    (h : (⟨4, ![nb, 256, 32, 32]⟩ : Shape).ShapeCasts ⟨3, ![nb, 8, 32768]⟩) (b : Fin nb) (j0 : Fin 262144) :
    centred (rowSum3 (shapeCast ⟨3, ![nb, 8, 32768]⟩ x h) b) (rowSq3 (shapeCast ⟨3, ![nb, 8, 32768]⟩ x h) b)
        (shapeCast ⟨3, ![nb, 8, 32768]⟩ x h (cell3 b j0))
      = centred (rowSum x b) (rowSq x b) (x (cell4 b j0)) := by
  have e1 : rowSum3 (shapeCast ⟨3, ![nb, 8, 32768]⟩ x h) b = rowSum x b :=
    Finset.sum_congr rfl fun j _ => reshape43_cell x h b j
  have e2 : rowSq3 (shapeCast ⟨3, ![nb, 8, 32768]⟩ x h) b = rowSq x b :=
    Finset.sum_congr rfl fun j _ => by rw [reshape43_cell x h b j]
  rw [e1, e2, reshape43_cell x h b j0]

/-- Normalizing the [nb, 8, 32768] layout of x and laying the result out [nb, 256, 32, 32] again normalizes x. -/
theorem reshape_normCentred3 (x : (⟨4, ![nb, 256, 32, 32]⟩ : Shape).Idx → EReal)
    (h : (⟨4, ![nb, 256, 32, 32]⟩ : Shape).ShapeCasts ⟨3, ![nb, 8, 32768]⟩)
    (h' : (⟨3, ![nb, 8, 32768]⟩ : Shape).ShapeCasts ⟨4, ![nb, 256, 32, 32]⟩) :
    shapeCast ⟨4, ![nb, 256, 32, 32]⟩ (normCentred3 (shapeCast ⟨3, ![nb, 8, 32768]⟩ x h)) h' = normCentred x := by
  funext i
  rw [reshape34_apply]
  refine (centred3_eq x h (i 0) (pos4 i)).trans ?_
  exact congrArg (fun z => centred (rowSum x (i 0)) (rowSq x (i 0)) (x z)) (cell4_pos4 i)

end Reshape

/-! ## Each program's two-step sum is the sum over the row -/

section Totals
variable {nb : Nat}

/-- [nb, 256, 32, 32] reshaped to [nb, 8192, 32]: entry (b, k, l) is entry (b, k / 32, k % 32, l). -/
theorem flatten_apply {α : Type} (x : (⟨4, ![nb, 256, 32, 32]⟩ : Shape).Idx → α)
    (h : (⟨4, ![nb, 256, 32, 32]⟩ : Shape).ShapeCasts ⟨3, ![nb, 8192, 32]⟩) (b : Fin nb) (k : Fin 8192) (l : Fin 32) :
    shapeCast ⟨3, ![nb, 8192, 32]⟩ x h (ix3 b k l)
      = x (ix4 b ⟨k.val / 32, by have := k.isLt; omega⟩ ⟨k.val % 32, Nat.mod_lt _ (by decide)⟩ l) :=
  shapeCast_apply x h (ix3 b k l) _ (by
    rw [Shape.rowMajor_val_three, Shape.rowMajor_val_four]
    show ((b.val * 256 + k.val / 32) * 32 + k.val % 32) * 32 + l.val = (b.val * 8192 + k.val) * 32 + l.val
    omega)

/-- [nb, 8192, 32] reshaped to [nb, 256, 32, 32]: entry (b, s, h, w) is entry (b, 32 s + h, w). -/
theorem unflatten_apply {α : Type} (y : (⟨3, ![nb, 8192, 32]⟩ : Shape).Idx → α)
    (h : (⟨3, ![nb, 8192, 32]⟩ : Shape).ShapeCasts ⟨4, ![nb, 256, 32, 32]⟩) (b : Fin nb) (s : Fin 256) (r : Fin 32) (w : Fin 32) :
    shapeCast ⟨4, ![nb, 256, 32, 32]⟩ y h (ix4 b s r w)
      = y (ix3 b ⟨s.val * 32 + r.val, by have := s.isLt; have := r.isLt; omega⟩ w) :=
  shapeCast_apply y h (ix4 b s r w) _ (by
    rw [Shape.rowMajor_val_three, Shape.rowMajor_val_four]
    show (b.val * 8192 + (s.val * 32 + r.val)) * 32 + w.val = ((b.val * 256 + s.val) * 32 + r.val) * 32 + w.val
    omega)

/-- Down the 8192, then across the 32: the sum over the row. -/
theorem total_flat4 {M : Type} [AddCommMonoid M] (f : (⟨4, ![nb, 256, 32, 32]⟩ : Shape).Idx → M) (b : Fin nb) :
    ∑ l : Fin 32, ∑ k : Fin 8192, f (ix4 b ⟨k.val / 32, by have := k.isLt; omega⟩ ⟨k.val % 32, Nat.mod_lt _ (by decide)⟩ l)
      = ∑ j : Fin 262144, f (cell4 b j) := by
  rw [Finset.sum_comm]
  rw [sum_flat (m := 8192) (n := 32) (N := 262144) (by decide) (by decide)
    (fun k l => f (ix4 b ⟨k.val / 32, by have := k.isLt; omega⟩ ⟨k.val % 32, Nat.mod_lt _ (by decide)⟩ l))]
  refine Finset.sum_congr rfl fun j _ => congrArg f (funext fun a => Fin.ext ?_)
  match a with
  | ⟨0, _⟩ => rfl
  | ⟨1, _⟩ => show j.val / 32 / 32 = j.val / 1024; omega
  | ⟨2, _⟩ => rfl
  | ⟨3, _⟩ => rfl

/-- Across the 32768, then down the 8: the sum over the row. -/
theorem total_flat3 {M : Type} [AddCommMonoid M] (f : (⟨3, ![nb, 8, 32768]⟩ : Shape).Idx → M) (b : Fin nb) :
    ∑ r : Fin 8, ∑ c : Fin 32768, f (ix3 b r c) = ∑ j : Fin 262144, f (cell3 b j) := by
  rw [sum_flat (m := 8) (n := 32768) (N := 262144) (by decide) (by decide) (fun r c => f (ix3 b r c))]

end Totals

end Cert.RowNorm

end
-- ==== Proof.BlockForms.lean ====
/-
  A block of rows, normalized by each program's text, read at an index.

  One program views its block [nb, 256, 32, 32] as [nb, 8192, 32], adds each row up down the 8192 and then across the 32
  (keeping unit axes), forms mean, scale and shift as [nb, 1, 1] vectors, and stores  x · scale + shift  viewed
  [nb, 256, 32, 32] again (`outK`). The other has its block as [nb, 8, 32768], adds across the 32768 and then down the 8,
  and stores  (x − mean) · scale  (`outR`). At an index each is the normalization of RowNorm.lean of the block itself:
  `outK_apply` (the shifted spelling) and `outR_apply` (the centred one). Stated for any number nb of rows in the block.
-/
import proofs.«152313_g2000209400627767_pallasbulk_1259_5_alg».proof.Proof.RowNorm

noncomputable section

open scoped BigOperators

namespace Cert.RowNorm

open Idealize.ShloMosaic Idealize.ShloMosaic.ValueIdx Idealize.ShloMosaic.RowStats Idealize.ShloMosaic.Keepdims

variable {nb : Nat}

/-! ## The two-step totals, as [nb, 1, 1] vectors -/

/-- Down the middle axis of [nb, 8192, 32], then across the last: at (b, 0, 0) the double sum. -/
theorem total_down_across (v : FVec Ideal ⟨3, ![nb, 8192, 32]⟩ .f32) (acc : BitVec FTy.f32.bits)
    (hφ : FKind.Formats .f32) (hacc : acc = FKind.add.neutral .f32 hφ)
    (h2 : (⟨3, ![nb, 8192, 32]⟩ : Shape).Reduces [1] ⟨2, ![nb, 32]⟩) (h3 : (⟨2, ![nb, 32]⟩ : Shape).ShapeCasts ⟨3, ![nb, 1, 32]⟩)
    (h4 : (⟨3, ![nb, 1, 32]⟩ : Shape).Reduces [2] ⟨2, ![nb, 1]⟩) (h5 : (⟨2, ![nb, 1]⟩ : Shape).ShapeCasts ⟨3, ![nb, 1, 1]⟩)
    (b : Fin nb) (z z' : Fin 1) :
    shapeCast ⟨3, ![nb, 1, 1]⟩ (multiReduction .add [2] ⟨2, ![nb, 1]⟩
        (shapeCast ⟨3, ![nb, 1, 32]⟩ (multiReduction .add [1] ⟨2, ![nb, 32]⟩ v acc h2 hφ hacc) h3) acc h4 hφ hacc) h5 (ix3 b z z')
      = ∑ l : Fin 32, ∑ k : Fin 8192, v (ix3 b k l) := by
  rw [cast_col3_apply, laneSum3_apply]
  refine Finset.sum_congr rfl fun l _ => ?_
  rw [cast_mid3_apply, midSum3_apply]

/-- Across the last axis of [nb, 8, 32768], then down the middle: at (b, 0, 0) the double sum. -/
theorem total_across_down (v : FVec Ideal ⟨3, ![nb, 8, 32768]⟩ .f32) (acc : BitVec FTy.f32.bits)
    (hφ : FKind.Formats .f32) (hacc : acc = FKind.add.neutral .f32 hφ)
    (h2 : (⟨3, ![nb, 8, 32768]⟩ : Shape).Reduces [2] ⟨2, ![nb, 8]⟩) (h3 : (⟨2, ![nb, 8]⟩ : Shape).ShapeCasts ⟨3, ![nb, 8, 1]⟩)
    (h4 : (⟨3, ![nb, 8, 1]⟩ : Shape).Reduces [1] ⟨2, ![nb, 1]⟩) (h5 : (⟨2, ![nb, 1]⟩ : Shape).ShapeCasts ⟨3, ![nb, 1, 1]⟩)
    (b : Fin nb) (z z' : Fin 1) :
    shapeCast ⟨3, ![nb, 1, 1]⟩ (multiReduction .add [1] ⟨2, ![nb, 1]⟩
        (shapeCast ⟨3, ![nb, 8, 1]⟩ (multiReduction .add [2] ⟨2, ![nb, 8]⟩ v acc h2 hφ hacc) h3) acc h4 hφ hacc) h5 (ix3 b z z')
      = ∑ r : Fin 8, ∑ c : Fin 32768, v (ix3 b r c) := by
  rw [cast_col3_apply, midSum3_apply]
  refine Finset.sum_congr rfl fun r _ => ?_
  rw [cast_col3_apply, laneSum3_apply]

/-! ## The [nb, 1, 1] statistics, from a total and a total of squares -/

/-- mean = total · c. -/
def meanV (tot : FVec Ideal ⟨3, ![nb, 1, 1]⟩ .f32) : FVec Ideal ⟨3, ![nb, 1, 1]⟩ .f32 :=
  mulf tot (broadcast ⟨3, ![nb, 1, 1]⟩ (Scalar.ofBits .f32 0x36800000#32))

/-- scale = (max (totsq · c − mean · mean) 0 + ε)^(−1/2). -/
def scaleV (tot totsq : FVec Ideal ⟨3, ![nb, 1, 1]⟩ .f32) : FVec Ideal ⟨3, ![nb, 1, 1]⟩ .f32 :=
  rsqrt (addf (maximumf (subf (mulf totsq (broadcast ⟨3, ![nb, 1, 1]⟩ (Scalar.ofBits .f32 0x36800000#32))) (mulf (meanV tot) (meanV tot)))
    (broadcast ⟨3, ![nb, 1, 1]⟩ (Scalar.ofBits .f32 0x00000000#32))) (broadcast ⟨3, ![nb, 1, 1]⟩ (Scalar.ofBits .f32 0x3727C5AC#32)))

theorem meanV_apply (tot : FVec Ideal ⟨3, ![nb, 1, 1]⟩ .f32) (j : (⟨3, ![nb, 1, 1]⟩ : Shape).Idx) :
    meanV tot j = tot j * invN := rfl

theorem scaleV_apply (tot totsq : FVec Ideal ⟨3, ![nb, 1, 1]⟩ .f32) (j : (⟨3, ![nb, 1, 1]⟩ : Shape).Idx) :
    scaleV tot totsq j = scale (tot j) (totsq j) := by
  show Ideal.rsqrt (max (totsq j * invN - (tot j * invN) * (tot j * invN)) (Ideal.ofBits .f32 0x00000000#32) + eps) = _
  rw [Ideal.ofBits_zero_f32]
  rfl

/-! ## The block as the first program leaves it -/

section K
variable (P : (⟨4, ![nb, 256, 32, 32]⟩ : Shape).Idx → EReal)
  (h1 : (⟨4, ![nb, 256, 32, 32]⟩ : Shape).ShapeCasts ⟨3, ![nb, 8192, 32]⟩)
  (h2 : (⟨3, ![nb, 8192, 32]⟩ : Shape).Reduces [1] ⟨2, ![nb, 32]⟩) (h3 : (⟨2, ![nb, 32]⟩ : Shape).ShapeCasts ⟨3, ![nb, 1, 32]⟩)
  (h4 : (⟨3, ![nb, 1, 32]⟩ : Shape).Reduces [2] ⟨2, ![nb, 1]⟩) (h5 : (⟨2, ![nb, 1]⟩ : Shape).ShapeCasts ⟨3, ![nb, 1, 1]⟩)
  (h6 : (⟨3, ![nb, 1, 1]⟩ : Shape).Broadcasts ⟨3, ![nb, 8192, 32]⟩)
  (h7 : (⟨3, ![nb, 8192, 32]⟩ : Shape).ShapeCasts ⟨4, ![nb, 256, 32, 32]⟩)

/-- A [nb, 8192, 32] vector's rows added up, as [nb, 1, 1]. -/
def totK (v : FVec Ideal ⟨3, ![nb, 8192, 32]⟩ .f32) : FVec Ideal ⟨3, ![nb, 1, 1]⟩ .f32 :=
  shapeCast ⟨3, ![nb, 1, 1]⟩ (multiReduction .add [2] ⟨2, ![nb, 1]⟩
    (shapeCast ⟨3, ![nb, 1, 32]⟩ (multiReduction .add [1] ⟨2, ![nb, 32]⟩ v 0x00000000#32 h2 (.inl rfl) rfl) h3) 0x00000000#32 h4 (.inl rfl) rfl) h5

/-- The block after the first program's body:  x · scale + (0 − mean) · scale, laid out [nb, 256, 32, 32]. -/
def outK : (⟨4, ![nb, 256, 32, 32]⟩ : Shape).Idx → EReal :=
  shapeCast ⟨4, ![nb, 256, 32, 32]⟩
    (addf (mulf (shapeCast ⟨3, ![nb, 8192, 32]⟩ P h1)
        (broadcastTo ⟨3, ![nb, 8192, 32]⟩
          (scaleV (totK h2 h3 h4 h5 (shapeCast ⟨3, ![nb, 8192, 32]⟩ P h1))
            (totK h2 h3 h4 h5 (mulf (shapeCast ⟨3, ![nb, 8192, 32]⟩ P h1) (shapeCast ⟨3, ![nb, 8192, 32]⟩ P h1)))) h6))
      (broadcastTo ⟨3, ![nb, 8192, 32]⟩
        (mulf (subf (broadcast ⟨3, ![nb, 1, 1]⟩ (Scalar.ofBits .f32 0x00000000#32))
            (meanV (totK h2 h3 h4 h5 (shapeCast ⟨3, ![nb, 8192, 32]⟩ P h1))))
          (scaleV (totK h2 h3 h4 h5 (shapeCast ⟨3, ![nb, 8192, 32]⟩ P h1))
            (totK h2 h3 h4 h5 (mulf (shapeCast ⟨3, ![nb, 8192, 32]⟩ P h1) (shapeCast ⟨3, ![nb, 8192, 32]⟩ P h1))))) h6)) h7

theorem outK_apply_ix (b : Fin nb) (s : Fin 256) (r : Fin 32) (w : Fin 32) :
    outK P h1 h2 h3 h4 h5 h6 h7 (ix4 b s r w) = shifted (rowSum P b) (rowSq P b) (P (ix4 b s r w)) := by
  have hs : s.val < 256 := s.isLt
  have hr : r.val < 32 := r.isLt
  have hS : totK h2 h3 h4 h5 (shapeCast ⟨3, ![nb, 8192, 32]⟩ P h1) (ix3 b 0 0) = rowSum P b :=
    (total_down_across _ _ (.inl rfl) rfl h2 h3 h4 h5 b 0 0).trans
      ((Finset.sum_congr rfl fun l _ => Finset.sum_congr rfl fun k _ => flatten_apply P h1 b k l).trans (total_flat4 P b))
  have hQ : totK h2 h3 h4 h5 (mulf (shapeCast ⟨3, ![nb, 8192, 32]⟩ P h1) (shapeCast ⟨3, ![nb, 8192, 32]⟩ P h1)) (ix3 b 0 0) = rowSq P b :=
    (total_down_across _ _ (.inl rfl) rfl h2 h3 h4 h5 b 0 0).trans
      ((Finset.sum_congr rfl fun l _ => Finset.sum_congr rfl fun k _ => by rw [mulf_apply, flatten_apply P h1 b k l]).trans
        (total_flat4 (fun i => P i * P i) b))
  have hx : shapeCast ⟨3, ![nb, 8192, 32]⟩ P h1 (ix3 b ⟨s.val * 32 + r.val, by omega⟩ w) = P (ix4 b s r w) :=
    (flatten_apply P h1 b ⟨s.val * 32 + r.val, by omega⟩ w).trans (congrArg P (funext fun a => Fin.ext (by
      match a with
      | ⟨0, _⟩ => rfl
      | ⟨1, _⟩ => show (s.val * 32 + r.val) / 32 = s.val; omega
      | ⟨2, _⟩ => show (s.val * 32 + r.val) % 32 = r.val; omega
      | ⟨3, _⟩ => rfl)))
  unfold outK
  rw [unflatten_apply, addf_apply, mulf_apply, bcast_unit3_apply, bcast_unit3_apply, hx, mulf_apply, scaleV_apply,
    subf_apply, meanV_apply, hS, hQ]
  show P (ix4 b s r w) * scale (rowSum P b) (rowSq P b) + (Ideal.ofBits .f32 0x00000000#32 - rowSum P b * invN) * scale (rowSum P b) (rowSq P b) = _
  rw [Ideal.ofBits_zero_f32]
  rfl

theorem outK_apply (i : (⟨4, ![nb, 256, 32, 32]⟩ : Shape).Idx) : outK P h1 h2 h3 h4 h5 h6 h7 i = normShifted P i := by
  rw [eq_ix4 i]
  exact outK_apply_ix P h1 h2 h3 h4 h5 h6 h7 (i 0) (i 1) (i 2) (i 3)

end K

/-! ## The block as the second program leaves it -/

section R
variable (P : (⟨3, ![nb, 8, 32768]⟩ : Shape).Idx → EReal)
  (h1 : (⟨3, ![nb, 8, 32768]⟩ : Shape).ShapeCasts ⟨3, ![nb, 8, 32768]⟩)
  (h2 : (⟨3, ![nb, 8, 32768]⟩ : Shape).Reduces [2] ⟨2, ![nb, 8]⟩) (h3 : (⟨2, ![nb, 8]⟩ : Shape).ShapeCasts ⟨3, ![nb, 8, 1]⟩)
  (h4 : (⟨3, ![nb, 8, 1]⟩ : Shape).Reduces [1] ⟨2, ![nb, 1]⟩) (h5 : (⟨2, ![nb, 1]⟩ : Shape).ShapeCasts ⟨3, ![nb, 1, 1]⟩)
  (h6 : (⟨3, ![nb, 1, 1]⟩ : Shape).Broadcasts ⟨3, ![nb, 8, 32768]⟩)

/-- A [nb, 8, 32768] vector's rows added up, as [nb, 1, 1]. -/
def totR (v : FVec Ideal ⟨3, ![nb, 8, 32768]⟩ .f32) : FVec Ideal ⟨3, ![nb, 1, 1]⟩ .f32 :=
  shapeCast ⟨3, ![nb, 1, 1]⟩ (multiReduction .add [1] ⟨2, ![nb, 1]⟩
    (shapeCast ⟨3, ![nb, 8, 1]⟩ (multiReduction .add [2] ⟨2, ![nb, 8]⟩ v 0x00000000#32 h2 (.inl rfl) rfl) h3) 0x00000000#32 h4 (.inl rfl) rfl) h5

/-- The block after the second program's body:  (x − mean) · scale. -/
def outR : (⟨3, ![nb, 8, 32768]⟩ : Shape).Idx → EReal :=
  mulf (subf (shapeCast ⟨3, ![nb, 8, 32768]⟩ P h1)
      (broadcastTo ⟨3, ![nb, 8, 32768]⟩ (meanV (totR h2 h3 h4 h5 (shapeCast ⟨3, ![nb, 8, 32768]⟩ P h1))) h6))
    (broadcastTo ⟨3, ![nb, 8, 32768]⟩
      (scaleV (totR h2 h3 h4 h5 (shapeCast ⟨3, ![nb, 8, 32768]⟩ P h1))
        (totR h2 h3 h4 h5 (mulf (shapeCast ⟨3, ![nb, 8, 32768]⟩ P h1) (shapeCast ⟨3, ![nb, 8, 32768]⟩ P h1)))) h6)

theorem outR_apply_ix (b : Fin nb) (r : Fin 8) (c : Fin 32768) :
    outR P h1 h2 h3 h4 h5 h6 (ix3 b r c) = centred (rowSum3 P b) (rowSq3 P b) (P (ix3 b r c)) := by
  have hS : totR h2 h3 h4 h5 P (ix3 b 0 0) = rowSum3 P b :=
    (total_across_down P _ (.inl rfl) rfl h2 h3 h4 h5 b 0 0).trans (total_flat3 P b)
  have hQ : totR h2 h3 h4 h5 (mulf P P) (ix3 b 0 0) = rowSq3 P b :=
    (total_across_down (mulf P P) _ (.inl rfl) rfl h2 h3 h4 h5 b 0 0).trans (total_flat3 (fun i => P i * P i) b)
  unfold outR
  rw [shapeCast_self, mulf_apply, subf_apply, bcast_unit3_apply, bcast_unit3_apply, meanV_apply, scaleV_apply, hS, hQ]
  rfl

theorem outR_apply (i : (⟨3, ![nb, 8, 32768]⟩ : Shape).Idx) : outR P h1 h2 h3 h4 h5 h6 i = normCentred3 P i := by
  rw [eq_ix3 i]
  exact outR_apply_ix P h1 h2 h3 h4 h5 h6 (i 0) (i 1) (i 2)

end R

end Cert.RowNorm

end
-- ==== Proof.KernelValue.lean ====
/-
  What the first program's result array holds after its run.

  The grid has 128 points; point t stages rows 2t and 2t + 1 of the argument (a block [2, 256, 32, 32], whole in the other
  three axes), normalizes the two rows by the body's text, and writes the block back to rows 2t, 2t + 1 of the result.
  The body's value is BlockForms.lean's `outK` of the staged block (`pay_eq`, by unfolding), which at an index is the
  shifted normalization of the block (`outK_apply`); a row of the block is a row of the argument, so what point t writes
  back is block t of the normalized argument (`flushed_eq`); the 128 blocks cover the result (row i is in block i / 2:
  `cover`), so the result array ends holding the normalized argument (`final`, `run`).
-/
import proofs.«152313_g2000209400627767_pallasbulk_1259_5_alg».proof.Proof.Gen.KernelIdeal.Frame
import proofs.«152313_g2000209400627767_pallasbulk_1259_5_alg».proof.Proof.BlockForms
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.RowNorm Idealize.ShloMosaic.ValueIdx

variable (m : (ℓ : Loc nD τ sig) → Buf (Elt Ideal) ℓ) (ρ : Dev nD → PrngReg)

theorem hz : (![0, 0, 0, 0] : Fin 4 → Nat) = fun _ => 0 := funext fun a => by fin_cases a <;> rfl

/-- The body's stored value is `outK` of the loaded block. -/
theorem pay_eq (P0 : Vec Ideal S2x256x32x32 .f32) :
    k0_pay1 P0 = outK (nb := 2) P0 Gen.shapeCasts_S2x256x32x32_S2x8192x32 Gen.reduces_S2x8192x32_S2x32 Gen.shapeCasts_S2x32_S2x1x32
      Gen.reduces_S2x1x32_S2x1 Gen.shapeCasts_S2x1_S2x1x1 Gen.broadcasts_S2x1x1_S2x8192x32 Gen.shapeCasts_S2x8192x32_S2x256x32x32 := rfl

/-- The printed index maps over the grid: both windows' block index is (t, 0, 0, 0). -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0 :=
  (by decide +kernel : ∀ t : Fin grid0.N, _)

/-- A block of two rows that reads an array X at rows 2t, 2t + 1, normalized, is the normalized X read there. -/
theorem norm_of_rows (X : (⟨4, ![256, 256, 32, 32]⟩ : Shape).Idx → EReal) (B : (⟨4, ![2, 256, 32, 32]⟩ : Shape).Idx → EReal) (tv : Nat)
    (hB : ∀ (y : (⟨4, ![2, 256, 32, 32]⟩ : Shape).Idx) (i : (⟨4, ![256, 256, 32, 32]⟩ : Shape).Idx),
      (i 0).val = 2 * tv + (y 0).val → (i 1).val = (y 1).val → (i 2).val = (y 2).val → (i 3).val = (y 3).val → B y = X i)
    (y : (⟨4, ![2, 256, 32, 32]⟩ : Shape).Idx) (i : (⟨4, ![256, 256, 32, 32]⟩ : Shape).Idx)
    (h0 : (i 0).val = 2 * tv + (y 0).val) (h1 : (i 1).val = (y 1).val) (h2 : (i 2).val = (y 2).val) (h3 : (i 3).val = (y 3).val) :
    normShifted B y = normShifted X i := by
  have eS : rowSum B (y 0) = rowSum X (i 0) := Finset.sum_congr rfl fun j _ => hB _ _ h0 rfl rfl rfl
  have eQ : rowSq B (y 0) = rowSq X (i 0) := Finset.sum_congr rfl fun j _ => by rw [hB (cell4 (y 0) j) (cell4 (i 0) j) h0 rfl rfl rfl]
  unfold normShifted
  rw [eS, eQ, hB y i h0 h1 h2 h3]

/-- WHAT POINT `t` WRITES BACK is block `t` of the normalized argument. -/
theorem flushed_eq (c : Dev nD) (t : Fin cfg0.N) :
    (dats m 0 c).flushed 1 t
      = ((cfg0.win 1).blk t).view.read (Elt Ideal) (normShifted (nb := 256) (V m c main_arg0 : S256x256x32x32.Idx → EReal)) := by
  show (cfg0.win 1).cut (grid0.coords t) ((dats m 0 c).after 1 t) = _
  rw [after0_1]
  unfold out0_1
  rw [View.canon_unit_zero hz]
  simp only [View.ld_unit_zero (S := S2x256x32x32) hz]
  rw [pay_eq]
  obtain ⟨e0, e1, e2, e3, f0, f1, f2, f3⟩ := idx_facts t
  funext y
  show outK (nb := 2) (iblk m c 0 t) _ _ _ _ _ _ _ y = normShifted (nb := 256) (V m c main_arg0 : S256x256x32x32.Idx → EReal) (((cfg0.win 1).blk t).view.emb y)
  rw [outK_apply]
  refine norm_of_rows (V m c main_arg0 : S256x256x32x32.Idx → EReal) (iblk m c 0 t) t.val ?_ y _ ?_ ?_ ?_ ?_
  · intro y' i' g0 g1 g2 g3
    show (V m c main_arg0 : S256x256x32x32.Idx → EReal) (((cfg0.win 0).blk t).view.emb y') = _
    refine congrArg _ (funext fun a => Fin.ext ?_)
    match a with
    | ⟨0, _⟩ => show win0_0.index t (0 : Fin 4) * 2 + 1 * (y' 0).val = (i' 0).val; omega
    | ⟨1, _⟩ => show win0_0.index t (1 : Fin 4) * 256 + 1 * (y' 1).val = (i' 1).val; omega
    | ⟨2, _⟩ => show win0_0.index t (2 : Fin 4) * 32 + 1 * (y' 2).val = (i' 2).val; omega
    | ⟨3, _⟩ => show win0_0.index t (3 : Fin 4) * 32 + 1 * (y' 3).val = (i' 3).val; omega
  · show win0_1.index t (0 : Fin 4) * 2 + 1 * (y 0).val = 2 * t.val + (y 0).val; omega
  · show win0_1.index t (1 : Fin 4) * 256 + 1 * (y 1).val = (y 1).val; omega
  · show win0_1.index t (2 : Fin 4) * 32 + 1 * (y 2).val = (y 2).val; omega
  · show win0_1.index t (3 : Fin 4) * 32 + 1 * (y 3).val = (y 3).val; omega

/-- An index of the result is in point `t`'s block iff each coordinate is in the block's range on its axis. -/
theorem mem_blk (t : Fin cfg0.N) (i : S256x256x32x32.Idx) :
    i ∈ ((cfg0.win 1).blk t).view.set ↔ ∀ a : Fin 4, win0_1.index t a * S2x256x32x32.size a ≤ (i a).val ∧ (i a).val < win0_1.index t a * S2x256x32x32.size a + S2x256x32x32.size a := by
  show i ∈ ((View.whole main_v0).slice (win0_1.rect t)).set ↔ _
  rw [View.set_slice_whole, Rect.mem_set_unit]
  exact Iff.rfl

/-- Every row of the result is in some point's block: row i in block i / 2. -/
theorem cover (i : S256x256x32x32.Idx) : ∃ t : Fin cfg0.N, (cfg0.win 1).flush t = true ∧ i ∈ ((cfg0.win 1).blk t).view.set := by
  have hi0 : (i 0).val < 256 := (i 0).isLt
  have hi1 : (i 1).val < 256 := (i 1).isLt
  have hi2 : (i 2).val < 32 := (i 2).isLt
  have hi3 : (i 3).val < 32 := (i 3).isLt
  have hN : cfg0.N = 128 := N_0
  refine ⟨⟨(i 0).val / 2, by omega⟩, flush0_1 _, ?_⟩
  obtain ⟨e0, e1, e2, e3, f0, f1, f2, f3⟩ := idx_facts ⟨(i 0).val / 2, by omega⟩
  rw [mem_blk]
  intro a
  match a with
  | ⟨0, _⟩ => show win0_1.index _ (0 : Fin 4) * 2 ≤ (i 0).val ∧ (i 0).val < win0_1.index _ (0 : Fin 4) * 2 + 2; rw [f0]; show (i 0).val / 2 * 2 ≤ (i 0).val ∧ (i 0).val < (i 0).val / 2 * 2 + 2; omega
  | ⟨1, _⟩ => show win0_1.index _ (1 : Fin 4) * 256 ≤ (i 1).val ∧ (i 1).val < win0_1.index _ (1 : Fin 4) * 256 + 256; rw [f1]; omega
  | ⟨2, _⟩ => show win0_1.index _ (2 : Fin 4) * 32 ≤ (i 2).val ∧ (i 2).val < win0_1.index _ (2 : Fin 4) * 32 + 32; rw [f2]; omega
  | ⟨3, _⟩ => show win0_1.index _ (3 : Fin 4) * 32 ≤ (i 3).val ∧ (i 3).val < win0_1.index _ (3 : Fin 4) * 32 + 32; rw [f3]; omega

/-- THE RESULT ARRAY after the run: the normalized argument. -/
theorem final (c : Dev nD) :
    (dats m 0 c).arrAt 1 cfg0.N = normShifted (nb := 256) (V m c main_arg0 : S256x256x32x32.Idx → EReal) :=
  (dats m 0 c).arrAt_eq_of_cover 1 _ (fun t _ => flushed_eq m c t) cover

/-- The run, read: the result array at the normalized argument, the argument unchanged. -/
theorem run : θ_run defs (onTc (τ := τ) (main (F := Ideal))) ⟨m, fun _ => 0, ρ⟩ fun r => ∀ c : Dev nD,
      r.2.mem ((c : Thread nD τ).loc main_v0) = normShifted (nb := 256) (m ((c : Thread nD τ).loc main_arg0) : S256x256x32x32.Idx → EReal)
      ∧ r.2.mem ((c : Thread nD τ).loc main_arg0) = m ((c : Thread nD τ).loc main_arg0) :=
  (θ_run defs _ _).mono (fun r h c => ⟨((h c).1 1).trans (final m c),
      ((h c).1 0).trans (((dats m 0 c).arrAt_in 0 rfl _).trans ((A_eq m c 0).trans (V_main_arg0 m c)))⟩)
    (run_main m ρ)

end Cert.KernelIdeal.Hand

end
-- ==== Proof.RefValue.lean ====
/-
  What the second program's result array holds after its run.

  @main first lays the argument out [256, 8, 32768] (a reshape: entry j of a row stays entry j of the row), then runs a
  grid of 32 points, and last lays the region's result out [256, 256, 32, 32] again. Point t stages rows 8t … 8t + 7 of the
  [256, 8, 32768] array (a block [8, 8, 32768]), normalizes the eight rows by the body's text — BlockForms.lean's `outR` of
  the staged block (`pay_eq`), at an index the centred normalization of the block (`outR_apply`) — and writes the block
  back to the same rows of the region's result. So what point t writes back is block t of the normalized array
  (`flushed_eq`); the 32 blocks cover it (row i is in block i / 8: `cover`), so the region's result is the normalized
  [256, 8, 32768] array (`final`); and the last reshape of that is the normalized argument (`result_eq`, by
  RowNorm.lean's `reshape_normCentred3`): `run`.
-/
import proofs.«152313_g2000209400627767_pallasbulk_1259_5_alg».proof.Proof.Gen.ReferenceIdeal.Frame
import proofs.«152313_g2000209400627767_pallasbulk_1259_5_alg».proof.Proof.BlockForms
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.Hand

open Cert.ReferenceIdeal Cert.ReferenceIdeal.Gen Cert.RowNorm Idealize.ShloMosaic.ValueIdx

variable (m : (ℓ : Loc nD τ sig) → Buf (Elt Ideal) ℓ) (ρ : Dev nD → PrngReg)

theorem hz : (![0, 0, 0] : Fin 3 → Nat) = fun _ => 0 := funext fun a => by fin_cases a <;> rfl

/-- The body's stored value is `outR` of the loaded block. -/
theorem pay_eq (P0 : Vec Ideal S8x8x32768 .f32) :
    k0_pay1 P0 = outR (nb := 8) P0 Gen.shapeCasts_S8x8x32768_S8x8x32768 Gen.reduces_S8x8x32768_S8x8 Gen.shapeCasts_S8x8_S8x8x1
      Gen.reduces_S8x8x1_S8x1 Gen.shapeCasts_S8x1_S8x1x1 Gen.broadcasts_S8x1x1_S8x8x32768 := rfl

/-- The printed index maps over the grid: both windows' block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The array the region stages: the argument laid out [256, 8, 32768]. -/
theorem V_main_v0 (c : Dev nD) :
    (V m c main_v0 : S256x8x32768.Idx → EReal)
      = shapeCast S256x8x32768 (m ((c : Thread nD τ).loc main_arg0) : S256x256x32x32.Idx → EReal) Gen.shapeCasts_S256x256x32x32_S256x8x32768 := by
  show StableHlo.after hostOps0 (fun b => m (c, b)) (Proc.devRef .tc main_v0) = _
  after_results
  rfl

/-- A block of eight rows that reads an array X at rows 8t … 8t + 7, normalized, is the normalized X read there. -/
theorem norm_of_rows (X : (⟨3, ![256, 8, 32768]⟩ : Shape).Idx → EReal) (B : (⟨3, ![8, 8, 32768]⟩ : Shape).Idx → EReal) (tv : Nat)
    (hB : ∀ (y : (⟨3, ![8, 8, 32768]⟩ : Shape).Idx) (i : (⟨3, ![256, 8, 32768]⟩ : Shape).Idx),
      (i 0).val = 8 * tv + (y 0).val → (i 1).val = (y 1).val → (i 2).val = (y 2).val → B y = X i)
    (y : (⟨3, ![8, 8, 32768]⟩ : Shape).Idx) (i : (⟨3, ![256, 8, 32768]⟩ : Shape).Idx)
    (h0 : (i 0).val = 8 * tv + (y 0).val) (h1 : (i 1).val = (y 1).val) (h2 : (i 2).val = (y 2).val) :
    normCentred3 B y = normCentred3 X i := by
  have eS : rowSum3 B (y 0) = rowSum3 X (i 0) := Finset.sum_congr rfl fun j _ => hB _ _ h0 rfl rfl
  have eQ : rowSq3 B (y 0) = rowSq3 X (i 0) := Finset.sum_congr rfl fun j _ => by rw [hB (cell3 (y 0) j) (cell3 (i 0) j) h0 rfl rfl]
  unfold normCentred3
  rw [eS, eQ, hB y i h0 h1 h2]

/-- WHAT POINT `t` WRITES BACK is block `t` of the normalized staged array. -/
theorem flushed_eq (c : Dev nD) (t : Fin cfg0.N) :
    (dats m 0 c).flushed 1 t
      = ((cfg0.win 1).blk t).view.read (Elt Ideal) (normCentred3 (nb := 256) (V m c main_v0 : S256x8x32768.Idx → EReal)) := by
  show (cfg0.win 1).cut (grid0.coords t) ((dats m 0 c).after 1 t) = _
  rw [after0_1]
  unfold out0_1
  rw [View.canon_unit_zero hz]
  simp only [View.ld_unit_zero (S := S8x8x32768) hz]
  rw [pay_eq]
  obtain ⟨e0, e1, e2, f0, f1, f2⟩ := idx_facts t
  funext y
  show outR (nb := 8) (iblk m c 0 t) _ _ _ _ _ _ y = normCentred3 (nb := 256) (V m c main_v0 : S256x8x32768.Idx → EReal) (((cfg0.win 1).blk t).view.emb y)
  rw [outR_apply]
  refine norm_of_rows (V m c main_v0 : S256x8x32768.Idx → EReal) (iblk m c 0 t) t.val ?_ y _ ?_ ?_ ?_
  · intro y' i' g0 g1 g2
    show (V m c main_v0 : S256x8x32768.Idx → EReal) (((cfg0.win 0).blk t).view.emb y') = _
    refine congrArg _ (funext fun a => Fin.ext ?_)
    match a with
    | ⟨0, _⟩ => show win0_0.index t (0 : Fin 3) * 8 + 1 * (y' 0).val = (i' 0).val; omega
    | ⟨1, _⟩ => show win0_0.index t (1 : Fin 3) * 8 + 1 * (y' 1).val = (i' 1).val; omega
    | ⟨2, _⟩ => show win0_0.index t (2 : Fin 3) * 32768 + 1 * (y' 2).val = (i' 2).val; omega
  · show win0_1.index t (0 : Fin 3) * 8 + 1 * (y 0).val = 8 * t.val + (y 0).val; omega
  · show win0_1.index t (1 : Fin 3) * 8 + 1 * (y 1).val = (y 1).val; omega
  · show win0_1.index t (2 : Fin 3) * 32768 + 1 * (y 2).val = (y 2).val; omega

/-- An index of the region's result is in point `t`'s block iff each coordinate is in the block's range on its axis. -/
theorem mem_blk (t : Fin cfg0.N) (i : S256x8x32768.Idx) :
    i ∈ ((cfg0.win 1).blk t).view.set ↔ ∀ a : Fin 3, win0_1.index t a * S8x8x32768.size a ≤ (i a).val ∧ (i a).val < win0_1.index t a * S8x8x32768.size a + S8x8x32768.size a := by
  show i ∈ ((View.whole main_v1).slice (win0_1.rect t)).set ↔ _
  rw [View.set_slice_whole, Rect.mem_set_unit]
  exact Iff.rfl

/-- Every row of the region's result is in some point's block: row i in block i / 8. -/
theorem cover (i : S256x8x32768.Idx) : ∃ t : Fin cfg0.N, (cfg0.win 1).flush t = true ∧ i ∈ ((cfg0.win 1).blk t).view.set := by
  have hi0 : (i 0).val < 256 := (i 0).isLt
  have hi1 : (i 1).val < 8 := (i 1).isLt
  have hi2 : (i 2).val < 32768 := (i 2).isLt
  have hN : cfg0.N = 32 := N_0
  refine ⟨⟨(i 0).val / 8, by omega⟩, flush0_1 _, ?_⟩
  obtain ⟨e0, e1, e2, f0, f1, f2⟩ := idx_facts ⟨(i 0).val / 8, by omega⟩
  rw [mem_blk]
  intro a
  match a with
  | ⟨0, _⟩ => show win0_1.index _ (0 : Fin 3) * 8 ≤ (i 0).val ∧ (i 0).val < win0_1.index _ (0 : Fin 3) * 8 + 8; rw [f0]; show (i 0).val / 8 * 8 ≤ (i 0).val ∧ (i 0).val < (i 0).val / 8 * 8 + 8; omega
  | ⟨1, _⟩ => show win0_1.index _ (1 : Fin 3) * 8 ≤ (i 1).val ∧ (i 1).val < win0_1.index _ (1 : Fin 3) * 8 + 8; rw [f1]; omega
  | ⟨2, _⟩ => show win0_1.index _ (2 : Fin 3) * 32768 ≤ (i 2).val ∧ (i 2).val < win0_1.index _ (2 : Fin 3) * 32768 + 32768; rw [f2]; omega

/-- THE REGION'S RESULT after the run: the normalized staged array. -/
theorem final (c : Dev nD) :
    (dats m 0 c).arrAt 1 cfg0.N = normCentred3 (nb := 256) (V m c main_v0 : S256x8x32768.Idx → EReal) :=
  (dats m 0 c).arrAt_eq_of_cover 1 _ (fun t _ => flushed_eq m c t) cover

/-- The last line of @main lays the region's result out [256, 256, 32, 32]. -/
theorem tail_v2 (c : Dev nD) :
    (Pipeline.afterTail₀ cfgs (dats m) 0 (V0 m) [hostOps1] c main_v2 : S256x256x32x32.Idx → EReal)
      = shapeCast S256x256x32x32 ((dats m 0 c).arrAt 1 cfg0.N : S256x8x32768.Idx → EReal) Gen.shapeCasts_S256x8x32768_S256x256x32x32 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 1 cfg0.N := Pipeline.withArrays_arr spec0 launch0.win.arr_inj c _ _ 1
  rw [e]
  rfl

/-- The normalized [256, 8, 32768] layout of the argument, laid out [256, 256, 32, 32] again, is the normalized argument. -/
theorem result_eq (c : Dev nD) :
    (Pipeline.afterTail₀ cfgs (dats m) 0 (V0 m) [hostOps1] c main_v2 : S256x256x32x32.Idx → EReal)
      = normCentred (nb := 256) (m ((c : Thread nD τ).loc main_arg0) : S256x256x32x32.Idx → EReal) := by
  rw [tail_v2, final, V_main_v0]
  exact reshape_normCentred3 _ _ _

/-- The run, read: the result array at the normalized argument, the argument unchanged. -/
theorem run : θ_run defs (onTc (τ := τ) (main (F := Ideal))) ⟨m, fun _ => 0, ρ⟩ fun r => ∀ c : Dev nD,
      r.2.mem ((c : Thread nD τ).loc main_v2) = normCentred (nb := 256) (m ((c : Thread nD τ).loc main_arg0) : S256x256x32x32.Idx → EReal)
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.ReferenceIdeal.Hand

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.Finite.lean ====
/-
  The precondition, read: every entry of the argument is a real number.

  The printed test compares the absolute value of each entry below the bit pattern of plus infinity and reduces the bits by
  conjunction; where it is one, no entry is an infinity (LibFiniteEntries.lean).
-/
import proofs.«152313_g2000209400627767_pallasbulk_1259_5_alg».proof.Pre_finite_inputs
import proofs.«152313_g2000209400627767_pallasbulk_1259_5_alg».proof.Proof.LibFiniteEntries

noncomputable section

namespace Cert.Finite

open Idealize.ShloMosaic Idealize.ShloMosaic.ValueIdx

/-- Where the printed finiteness test of the argument is all ones, every entry of the argument is a real number. -/
theorem real_entries [hP : Cert.Pre_finite_inputs.Facts] (a : FVec Ideal Cert.Pre_finite_inputs.S256x256x32x32 .f32)
    (h : Cert.Pre_finite_inputs.fn (F := Ideal) a = fun _ => 1#1) (i : Cert.Pre_finite_inputs.S256x256x32x32.Idx) :
    ∃ v : ℝ, a i = (v : EReal) := by
  have e := congrFun h ix0
  dsimp only [Cert.Pre_finite_inputs.fn] at e
  exact Cert.LibFiniteEntries.real_entries_of_all_lt_inf a _ _ _ _ e i

end Cert.Finite

end
-- ==== Proof.lean ====
/-
  Two layer-norm kernels over x : f32[256, 256, 32, 32], each normalizing every row of 262144 = 256 · 32 · 32 numbers by its own
  mean and variance, are one function at the ideal values when x holds finite numbers.

  With s the sum of a row, q the sum of its squares, c = 2^-18 (exactly one over the row's length) and ε the f32 nearest
  1e-5, both compute  m = s · c,  r = (max (q · c − m · m) 0 + ε)^(−1/2).  The first program views two rows at a time as
  [2, 8192, 32], adds each row down the 8192 and then across the 32, and stores  x · r + (0 − m) · r;  the second lays the
  array out [256, 8, 32768], takes eight rows at a time, adds each across the 32768 and then down the 8, stores
  (x − m) · r,  and lays the result out [256, 256, 32, 32] again. Two facts join them:

  * each two-step sum is the sum over the row's 262144 positions counted row-major (addition on the extended reals is
    commutative and associative, so no finiteness is needed for this);
  * x · r + (0 − m) · r = (x − m) · r  is distributivity, which fails at the infinities: here the precondition is used —
    every entry real makes s, q, m and r real (r because max … 0 + ε is a positive real).

  Modules: LibRowStats (sums over a middle axis, the flat sum, the law on the reals), LibKeepdims and LibFiniteEntries
  (keepdims readings; real entries from the finiteness test), RowNorm (the function, the two layouts of a row),
  BlockForms (each body's stored block at an index), KernelValue and RefValue (from blocks to the result arrays, the
  second through its two reshapes), Finite (the precondition read). The frames are the generated ones; the ideal pass
  rewrote nothing, so `preserves` is `True`.
-/
import proofs.«152313_g2000209400627767_pallasbulk_1259_5_alg».proof.Defs
import proofs.«152313_g2000209400627767_pallasbulk_1259_5_alg».proof.Proof.Gen.Kernel
import proofs.«152313_g2000209400627767_pallasbulk_1259_5_alg».proof.Proof.Gen.Kernel.Skeleton
import proofs.«152313_g2000209400627767_pallasbulk_1259_5_alg».proof.Proof.Gen.Kernel.Launch
import proofs.«152313_g2000209400627767_pallasbulk_1259_5_alg».proof.Proof.Gen.Kernel.Points
import proofs.«152313_g2000209400627767_pallasbulk_1259_5_alg».proof.Proof.Gen.Kernel.Frame
import proofs.«152313_g2000209400627767_pallasbulk_1259_5_alg».proof.Proof.Gen.KernelIdeal
import proofs.«152313_g2000209400627767_pallasbulk_1259_5_alg».proof.Proof.Gen.KernelIdeal.Skeleton
import proofs.«152313_g2000209400627767_pallasbulk_1259_5_alg».proof.Proof.Gen.KernelIdeal.Launch
import proofs.«152313_g2000209400627767_pallasbulk_1259_5_alg».proof.Proof.Gen.KernelIdeal.Points
import proofs.«152313_g2000209400627767_pallasbulk_1259_5_alg».proof.Proof.Gen.KernelIdeal.Frame
import proofs.«152313_g2000209400627767_pallasbulk_1259_5_alg».proof.Proof.Gen.ReferenceIdeal
import proofs.«152313_g2000209400627767_pallasbulk_1259_5_alg».proof.Proof.Gen.ReferenceIdeal.Skeleton
import proofs.«152313_g2000209400627767_pallasbulk_1259_5_alg».proof.Proof.Gen.ReferenceIdeal.Launch
import proofs.«152313_g2000209400627767_pallasbulk_1259_5_alg».proof.Proof.Gen.ReferenceIdeal.Points
import proofs.«152313_g2000209400627767_pallasbulk_1259_5_alg».proof.Proof.Gen.ReferenceIdeal.Frame
import proofs.«152313_g2000209400627767_pallasbulk_1259_5_alg».proof.Proof.Gen.Pre_finite_inputs
import proofs.«152313_g2000209400627767_pallasbulk_1259_5_alg».proof.Proof.KernelValue
import proofs.«152313_g2000209400627767_pallasbulk_1259_5_alg».proof.Proof.RefValue
import proofs.«152313_g2000209400627767_pallasbulk_1259_5_alg».proof.Proof.Finite
import Idealize.ShloMosaic.Adequacy
import Idealize.ShloMosaic.Init

noncomputable section

namespace Cert.Proof

open Idealize.ShloMosaic Idealize.ShloMosaic.TcCoe Idealize.SL.Sem Cert.RowNorm

/-- Each program runs and leaves its argument as it was: the generated frames. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- At the ideal values the first program's result ends at the shifted normalization of its argument and the second's at
    the centred normalization of its own; the arguments agree and hold reals, where the two spellings are one function. -/
theorem algebraic : Cert.algebraic_KernelIdeal_ReferenceIdeal := by
  intro m ρ m' ρ' hpre hagree
  refine ⟨fun c => normShifted (nb := 256) (m ((c : Thread Cert.KernelIdeal.nD Cert.KernelIdeal.τ).loc Cert.KernelIdeal.main_arg0)),
    Cert.KernelIdeal.Hand.run m ρ, ?_⟩
  refine (θ_run Cert.ReferenceIdeal.defs _ _).mono (fun r h c => ⟨(h c).1.trans ?_, (h c).2⟩) (Cert.ReferenceIdeal.Hand.run m' ρ')
  rw [hagree c]
  exact (normShifted_eq_normCentred _ (fun i => Cert.Finite.real_entries _ (hpre c) i)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
